-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000x2 : Shape := ⟨2, ![640000, 2]⟩
abbrev S640000x4 : Shape := ⟨2, ![640000, 4]⟩
abbrev S260x256 : Shape := ⟨2, ![260, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000x4 : S_.BroadcastsInDim S640000x4 (![] : Fin 0 → Fin S640000x4.rank)
  reducesTo_S640000x4_S_d0_1 : S640000x4.ReducesTo [0, 1] S_
  bcast_S_S260x256 : S_.BroadcastsInDim S260x256 (![] : Fin 0 → Fin S260x256.rank)
  reducesTo_S260x256_S_d0_1 : S260x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S256x1 .f32) (main_arg6 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg5
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S10000x128 .f32) (main_arg1 : IVec S640000x2 32) (main_arg2 : FVec F S640000x4 .f32) (main_arg3 : FVec F S260x256 .f32) (main_arg4 : FVec F S256 .f32) (main_arg5 : FVec F S256x1 .f32) (main_arg6 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000x4 .f32 := Host.absf main_arg2
  let main_cst_0 : FVec F S_ .f32 := constant S_ .f32 0x7F800000#32
  let main_v5 : FVec F S640000x4 .f32 := broadcastInDim S640000x4 ![] bcast_S_S640000x4 main_cst_0
  let main_v6 : IVec S640000x4 1 := cmpf .olt main_v4 main_v5
  let main_c_1 : IVec S_ 1 := constantI S_ 1 1#1
  let main_v7 : IVec S_ 1 := (fun x v => Host.reduce IntOp.andi x v reducesTo_S640000x4_S_d0_1 h_S_) main_v6 main_c_1
  let main_v8 : IVec S_ 1 := andi main_v3 main_v7
  let main_v9 : FVec F S260x256 .f32 := Host.absf main_arg3
  let main_cst_2 : FVec F S_ .f32 := constant S_ .f32 0x7F800000#32
  let main_v10 : FVec F S260x256 .f32 := broadcastInDim S260x256 ![] bcast_S_S260x256 main_cst_2
  let main_v11 : IVec S260x256 1 := cmpf .olt main_v9 main_v10
  let main_c_3 : IVec S_ 1 := constantI S_ 1 1#1
  let main_v12 : IVec S_ 1 := (fun x v => Host.reduce IntOp.andi x v reducesTo_S260x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S10000x128 : Shape := ⟨2, ![10000, 128]⟩
abbrev S640000x2 : Shape := ⟨2, ![640000, 2]⟩
abbrev S640000x4 : Shape := ⟨2, ![640000, 4]⟩
abbrev S260x256 : Shape := ⟨2, ![260, 256]⟩
abbrev S256 : Shape := ⟨1, ![256]⟩
abbrev S256x1 : Shape := ⟨2, ![256, 1]⟩
abbrev S1 : Shape := ⟨1, ![1]⟩
abbrev S640000x1 : Shape := ⟨2, ![640000, 1]⟩
abbrev S640000 : Shape := ⟨1, ![640000]⟩
abbrev S_ : Shape := ⟨0, ![]⟩
abbrev S640000x128 : Shape := ⟨2, ![640000, 128]⟩
abbrev S128x256 : Shape := ⟨2, ![128, 256]⟩
abbrev S4x256 : Shape := ⟨2, ![4, 256]⟩
abbrev S1x256 : Shape := ⟨2, ![1, 256]⟩
abbrev S1x1 : Shape := ⟨2, ![1, 1]⟩
abbrev S6400x128 : Shape := ⟨2, ![6400, 128]⟩
abbrev S6400x4 : Shape := ⟨2, ![6400, 4]⟩
abbrev S6400x1 : Shape := ⟨2, ![6400, 1]⟩
abbrev S6400x256 : Shape := ⟨2, ![6400, 256]⟩

abbrev nBuf : Space → Nat
  | .hbm => 41
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S640000x2, .i32⟩
  | .hbm, ⟨2, _⟩ => ⟨S640000x4, .f32⟩
  | .hbm, ⟨3, _⟩ => ⟨S260x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S640000x1, .i32⟩
  | .hbm, ⟨8, _⟩ => ⟨S640000, .i32⟩
  | .hbm, ⟨9, _⟩ => ⟨S640000x1, .i32⟩
  | .hbm, ⟨10, _⟩ => ⟨S640000, .i32⟩
  | .hbm, ⟨11, _⟩ => ⟨S10000x128, .bf16⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .bf16⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .bf16⟩
  | .hbm, ⟨30, _⟩ => ⟨S640000x4, .bf16⟩
  | .hbm, ⟨31, _⟩ => ⟨S128x256, .f32⟩
  | .hbm, ⟨32, _⟩ => ⟨S128x256, .bf16⟩
  | .hbm, ⟨33, _⟩ => ⟨S128x256, .f32⟩
  | .hbm, ⟨34, _⟩ => ⟨S128x256, .bf16⟩
  | .hbm, ⟨35, _⟩ => ⟨S4x256, .f32⟩
  | .hbm, ⟨36, _⟩ => ⟨S4x256, .bf16⟩
  | .hbm, ⟨37, _⟩ => ⟨S256x1, .bf16⟩
  | .hbm, ⟨38, _⟩ => ⟨S1x256, .f32⟩
  | .hbm, ⟨39, _⟩ => ⟨S1x1, .f32⟩
  | .hbm, ⟨40, _⟩ => ⟨S640000x1, .f32⟩
  | .local _ .vmem, ⟨0, _⟩ => ⟨S6400x128, .bf16⟩
  | .local _ .vmem, ⟨1, _⟩ => ⟨S6400x128, .bf16⟩
  | .local _ .vmem, ⟨2, _⟩ => ⟨S6400x128, .bf16⟩
  | .local _ .vmem, ⟨3, _⟩ => ⟨S6400x128, .bf16⟩
  | .local _ .vmem, ⟨4, _⟩ => ⟨S6400x4, .bf16⟩
  | .local _ .vmem, ⟨5, _⟩ => ⟨S6400x4, .bf16⟩
  | .local _ .vmem, ⟨6, _⟩ => ⟨S128x256, .bf16⟩
  | .local _ .vmem, ⟨7, _⟩ => ⟨S128x256, .bf16⟩
  | .local _ .vmem, ⟨8, _⟩ => ⟨S4x256, .bf16⟩
  | .local _ .vmem, ⟨9, _⟩ => ⟨S1x256, .f32⟩
  | .local _ .vmem, ⟨10, _⟩ => ⟨S256x1, .bf16⟩
  | .local _ .vmem, ⟨11, _⟩ => ⟨S1x1, .f32⟩
  | .local _ .vmem, ⟨12, _⟩ => ⟨S6400x1, .f32⟩
  | .local _ .vmem, ⟨13, _⟩ => ⟨S6400x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x4 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6400x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S640000x2_S640000x1_0_0 : S640000x2.Slices ![0, 0] S640000x1
  shapeCasts_S640000x1_S640000 : S640000x1.ShapeCasts S640000
  slices_S640000x2_S640000x1_0_1 : S640000x2.Slices ![0, 1] S640000x1
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  slices_S260x256_S128x256_0_0 : S260x256.Slices ![0, 0] S128x256
  slices_S260x256_S128x256_128_0 : S260x256.Slices ![128, 0] S128x256
  slices_S260x256_S4x256_256_0 : S260x256.Slices ![256, 0] S4x256
  shapeCasts_S256_S1x256 : S256.ShapeCasts S1x256
  shapeCasts_S1_S1x1 : S1.ShapeCasts S1x1
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S6400x4_S6400x4_0_0 : ∀ a, (![0, 0] : Fin 2 → Nat) a + S6400x4.size a ≤ S6400x4.size a
  h_S6400x4 : 0 < S6400x4.numel
  shapeCasts_S6400x4_S6400x4 : S6400x4.ShapeCasts S6400x4
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S4x256_S4x256_0_0 : ∀ a, (![0, 0] : Fin 2 → Nat) a + S4x256.size a ≤ S4x256.size a
  h_S4x256 : 0 < S4x256.numel
  shapeCasts_S4x256_S4x256 : S4x256.ShapeCasts S4x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S6400x256 : S1x256.Broadcasts S6400x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6400x1 : S1x1.Broadcasts S6400x1
  inb_S6400x1_S6400x1_0_0 : ∀ a, (![0, 0] : Fin 2 → Nat) a + S6400x1.size a ≤ S6400x1.size a
  h_S6400x1 : 0 < S6400x1.numel
  gather_S10000x128_S640000x1_S640000x128_1_0_n_n_0_1_1128_wf : GatherDims.WF S10000x128 S640000x1 S640000x128 [1] [0] [] [0] [] 1 ![1, 128]
  dot_S6400x128_S128x256_S6400x256_1_0_0_1_n_n_wf : DotDims.WF S6400x128 S128x256 S6400x256 [1] [0] [0] [1] [] []
  dot_S6400x4_S4x256_S6400x256_1_0_0_1_n_n_wf : DotDims.WF S6400x4 S4x256 S6400x256 [1] [0] [0] [1] [] []
  dot_S6400x256_S256x1_S6400x1_1_0_0_1_n_n_wf : DotDims.WF S6400x256 S256x1 S6400x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S640000x128.size a
  hwx0_0 : ∀ i : grid0.Coords, EltTy.bits .bf16 = 32 ∨ (Rect.block (s := S640000x128) S6400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S640000x128.size a
  hwx0_1 : ∀ i : grid0.Coords, EltTy.bits .bf16 = 32 ∨ (Rect.block (s := S640000x128) S6400x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x4.size a ≤ S640000x4.size a
  hwx0_2 : ∀ i : grid0.Coords, EltTy.bits .bf16 = 32 ∨ (Rect.block (s := S640000x4) S6400x4.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x256.size a
  hwx0_5 : ∀ i : grid0.Coords, EltTy.bits .bf16 = 32 ∨ (Rect.block (s := S4x256) S4x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S256x1.size a
  hwx0_7 : ∀ i : grid0.Coords, EltTy.bits .bf16 = 32 ∨ (Rect.block (s := S256x1) S256x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6400x1.size a ≤ S640000x1.size a
  hwx0_9 : ∀ i : grid0.Coords, EltTy.bits .f32 = 32 ∨ (Rect.block (s := S640000x1) S6400x1.size (cc0_transform_9 i) (hinb0_9 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S6400x128_S128x256_S6400x256_1_0_0_1_n_n : DotDims S6400x128 S128x256 S6400x256 where
  lhsContracting := [1]
  rhsContracting := [0]
  lhsNonContracting := [0]
  rhsNonContracting := [1]
  lhsBatch := []
  rhsBatch := []
  wf := dot_S6400x128_S128x256_S6400x256_1_0_0_1_n_n_wf
def dot_S6400x4_S4x256_S6400x256_1_0_0_1_n_n : DotDims S6400x4 S4x256 S6400x256 where
  lhsContracting := [1]
  rhsContracting := [0]
  lhsNonContracting := [0]
  rhsNonContracting := [1]
  lhsBatch := []
  rhsBatch := []
  wf := dot_S6400x4_S4x256_S6400x256_1_0_0_1_n_n_wf
def dot_S6400x256_S256x1_S6400x1_1_0_0_1_n_n : DotDims S6400x256 S256x1 S6400x1 where
  lhsContracting := [1]
  rhsContracting := [0]
  lhsNonContracting := [0]
  rhsNonContracting := [1]
  lhsBatch := []
  rhsBatch := []
  wf := dot_S6400x256_S256x1_S6400x1_1_0_0_1_n_n_wf

abbrev win0_0 : Pipeline.Window sig grid0 :=
  Pipeline.Window.ofSpec (Memref.whole main_v11) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S6400x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S4x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S256x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S6400x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S10000x128 : Shape := ⟨2, ![10000, 128]⟩
abbrev S640000x2 : Shape := ⟨2, ![640000, 2]⟩
abbrev S640000x4 : Shape := ⟨2, ![640000, 4]⟩
abbrev S260x256 : Shape := ⟨2, ![260, 256]⟩
abbrev S256 : Shape := ⟨1, ![256]⟩
abbrev S256x1 : Shape := ⟨2, ![256, 1]⟩
abbrev S1 : Shape := ⟨1, ![1]⟩
abbrev S640000x1 : Shape := ⟨2, ![640000, 1]⟩
abbrev S640000 : Shape := ⟨1, ![640000]⟩
abbrev S_ : Shape := ⟨0, ![]⟩
abbrev S640000x128 : Shape := ⟨2, ![640000, 128]⟩
abbrev S640000x260 : Shape := ⟨2, ![640000, 260]⟩
abbrev S640000x256 : Shape := ⟨2, ![640000, 256]⟩
abbrev S1x256 : Shape := ⟨2, ![1, 256]⟩
abbrev S1x1 : Shape := ⟨2, ![1, 1]⟩

abbrev nBuf : Space → Nat
  | .hbm => 49
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000x2, .i32⟩
  | .hbm, ⟨2, _⟩ => ⟨S640000x4, .f32⟩
  | .hbm, ⟨3, _⟩ => ⟨S260x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S640000x1, .i32⟩
  | .hbm, ⟨8, _⟩ => ⟨S640000, .i32⟩
  | .hbm, ⟨9, _⟩ => ⟨S640000x1, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S640000x260, .f32⟩
  | .hbm, ⟨30, _⟩ => ⟨S640000x256, .f32⟩
  | .hbm, ⟨31, _⟩ => ⟨S1x256, .f32⟩
  | .hbm, ⟨32, _⟩ => ⟨S640000x256, .f32⟩
  | .hbm, ⟨33, _⟩ => ⟨S640000x256, .f32⟩
  | .hbm, ⟨34, _⟩ => ⟨S_, .f32⟩
  | .hbm, ⟨35, _⟩ => ⟨S640000x256, .f32⟩
  | .hbm, ⟨36, _⟩ => ⟨S640000x256, .f32⟩
  | .hbm, ⟨37, _⟩ => ⟨S640000x1, .f32⟩
  | .hbm, ⟨38, _⟩ => ⟨S1x1, .f32⟩
  | .hbm, ⟨39, _⟩ => ⟨S640000x1, .f32⟩
  | .hbm, ⟨40, _⟩ => ⟨S640000x1, .f32⟩
  | .hbm, ⟨41, _⟩ => ⟨S640000x1, .f32⟩
  | .hbm, ⟨42, _⟩ => ⟨S640000x1, .f32⟩
  | .hbm, ⟨43, _⟩ => ⟨S_, .f32⟩
  | .hbm, ⟨44, _⟩ => ⟨S640000x1, .f32⟩
  | .hbm, ⟨45, _⟩ => ⟨S640000x1, .f32⟩
  | .hbm, ⟨46, _⟩ => ⟨S_, .f32⟩
  | .hbm, ⟨47, _⟩ => ⟨S640000x1, .f32⟩
  | .hbm, ⟨48, _⟩ => ⟨S640000x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  slices_S640000x2_S640000x1_0_0 : S640000x2.Slices ![0, 0] S640000x1
  shapeCasts_S640000x1_S640000 : S640000x1.ShapeCasts S640000
  slices_S640000x2_S640000x1_0_1 : S640000x2.Slices ![0, 1] S640000x1
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x4_S640000x260_d1 : Shape.Concatenates [S640000x128, S640000x128, S640000x4] S640000x260 1
  bcast_S256_S1x256_1 : S256.BroadcastsInDim S1x256 (![1] : Fin 1 → Fin S1x256.rank)
  bcast_S1x256_S640000x256_0_1 : S1x256.BroadcastsInDim S640000x256 (![0, 1] : Fin 2 → Fin S640000x256.rank)
  bcast_S_S640000x256 : S_.BroadcastsInDim S640000x256 (![] : Fin 0 → Fin S640000x256.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S_S640000x1 : S_.BroadcastsInDim S640000x1 (![] : Fin 0 → Fin S640000x1.rank)
  gather_S10000x128_S640000x1_S640000x128_1_0_n_n_0_1_1128_wf : GatherDims.WF S10000x128 S640000x1 S640000x128 [1] [0] [] [0] [] 1 ![1, 128]
  dot_S640000x260_S260x256_S640000x256_1_0_0_1_n_n_wf : DotDims.WF S640000x260 S260x256 S640000x256 [1] [0] [0] [1] [] []
  dot_S640000x256_S256x1_S640000x1_1_0_0_1_n_n_wf : DotDims.WF S640000x256 S256x1 S640000x1 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x260_S260x256_S640000x256_1_0_0_1_n_n : DotDims S640000x260 S260x256 S640000x256 where
  lhsContracting := [1]
  rhsContracting := [0]
  lhsNonContracting := [0]
  rhsNonContracting := [1]
  lhsBatch := []
  rhsBatch := []
  wf := dot_S640000x260_S260x256_S640000x256_1_0_0_1_n_n_wf
def dot_S640000x256_S256x1_S640000x1_1_0_0_1_n_n : DotDims S640000x256 S256x1 S640000x1 where
  lhsContracting := [1]
  rhsContracting := [0]
  lhsNonContracting := [0]
  rhsNonContracting := [1]
  lhsBatch := []
  rhsBatch := []
  wf := dot_S640000x256_S256x1_S640000x1_1_0_0_1_n_n_wf

class Facts : Prop extends Facts₀ where

variable [Facts]
-- ==== Proof.EdgeMlp.lean ====
/-
  What both programs compute, as one function of the arrays, entry by entry, on the extended reals.

  For one edge: its two gathered node rows r, c (128 numbers each) and its 4 distances d are multiplied into the 256
  hidden units by the three row-stretches of the first weight matrix (rows 0–127 meet r, rows 128–255 meet c, rows
  256–259 meet d), the first bias is added, the result is clamped below at zero, the 256 clamped values are
  weighted by the second weight column, the second bias is added, and the logistic function is applied:

      cell = logistic ( Σ_j max ( (Σ_k r k · wr k j + Σ_k c k · wc k j) + Σ_k d k · we k j + b j , 0 ) · w2 j + b2 ).

  The zero of the clamp is kept as the word both programs write; it is never evaluated.
-/
import Idealize.ShloMosaic.PureOps.Ideal
import Idealize.ShloMosaic.Lib.ValueIdx

noncomputable section

open scoped BigOperators

namespace Cert.EdgeMlp

open Idealize.ShloMosaic Idealize.ShloMosaic.ValueIdx

/-- One edge's output from its three input rows, the three stretches of the first weight matrix, the first bias,
    the second weight column and the second bias. -/
def cell (r c : Fin 128 → EReal) (d : Fin 4 → EReal) (wr wc : Fin 128 → Fin 256 → EReal) (we : Fin 4 → Fin 256 → EReal)
    (b : Fin 256 → EReal) (w2 : Fin 256 → EReal) (b2 : EReal) : EReal :=
  Ideal.logistic ((∑ j : Fin 256,
      max ((((∑ k : Fin 128, r k * wr k j) + ∑ k : Fin 128, c k * wc k j) + ∑ k : Fin 4, d k * we k j) + b j)
        (Ideal.ofBits .f32 0x00000000#32) * w2 j) + b2)

/-- The whole result: entry (e, ·) is edge e's cell, its rows read off the two gathered tables `R`, `C` and the
    distance table `D`, the weights off the one [260, 256] matrix `W` by stretches. -/
def mlp (R C : (⟨2, ![640000, 128]⟩ : Shape).Idx → EReal) (D : (⟨2, ![640000, 4]⟩ : Shape).Idx → EReal)
    (W : (⟨2, ![260, 256]⟩ : Shape).Idx → EReal) (b1 : (⟨1, ![256]⟩ : Shape).Idx → EReal)
    (W2 : (⟨2, ![256, 1]⟩ : Shape).Idx → EReal) (b2 : (⟨1, ![1]⟩ : Shape).Idx → EReal) :
    (⟨2, ![640000, 1]⟩ : Shape).Idx → EReal :=
  fun i => cell (fun k => R (ix2 (i 0) k)) (fun k => C (ix2 (i 0) k)) (fun k => D (ix2 (i 0) k))
    (fun k j => W (ix2 (⟨k.val, by omega⟩ : Fin 260) j)) (fun k j => W (ix2 (⟨128 + k.val, by omega⟩ : Fin 260) j))
    (fun k j => W (ix2 (⟨256 + k.val, by omega⟩ : Fin 260) j))
    (fun j => b1 (ix1 j)) (fun j => W2 (ix2 j (0 : Fin 1))) (b2 (ix1 (0 : Fin 1)))

end Cert.EdgeMlp

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.BodyCell.lean ====
/-
  What the kernel body stores for one edge of its block.

  The body loads a block of 6400 rows of each gathered table and of the distance table, the three stretches of the first
  weight matrix, the two biases and the second weight column, and stores one value per row. Each of its four matrix
  products starts from the zero accumulator, so at an entry it is the plain sum over the contracted position; the two bias
  broadcasts read the bias row at the entry's column; casts between equal shapes and the change of float format are the
  identity. Row p of the stored block is therefore `cell` of row p of the three input blocks and of the weight blocks.
-/
import proofs.«126675_j50568944943204_2_alg».proof.Proof.Gen.KernelIdeal.Skeleton
import proofs.«126675_j50568944943204_2_alg».proof.Proof.EdgeMlp
import proofs.«126675_j50568944943204_2_alg».proof.Proof.LibMatmulAt
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx Idealize.ShloMosaic.MatmulAt
open Cert.EdgeMlp

/-- A block of 6400 rows of 128 times a [128, 256] weight stretch, from the zero accumulator, at (p, j): the sum over
    the 128 contracted positions. -/
theorem rows128_product (l : FVec Ideal S6400x128 .bf16) (r : FVec Ideal S128x256 .bf16) (p : Fin 6400) (j : Fin 256) :
    matmul dot_S6400x128_S128x256_S6400x256_1_0_0_1_n_n none l r (constant S6400x256 .f32 0x00000000#32) (ix2 p j)
      = ∑ k : Fin 128, l (ix2 p k) * r (ix2 k j) :=
  matmul_zero_ix2 dot_S6400x128_S128x256_S6400x256_1_0_0_1_n_n rfl rfl
    (fun i q => by
      unfold DotDims.lhsIdx
      rw [dif_neg (show ¬(0 : Fin S6400x128.rank) ∈ dot_S6400x128_S128x256_S6400x256_1_0_0_1_n_n.lhsBatch by decide),
        dif_pos (show (0 : Fin S6400x128.rank) ∈ dot_S6400x128_S128x256_S6400x256_1_0_0_1_n_n.lhsNonContracting by decide)]
      rfl)
    (fun i q => dot_S6400x128_S128x256_S6400x256_1_0_0_1_n_n.lhsIdx_val_of_single rfl i q)
    (fun i q => dot_S6400x128_S128x256_S6400x256_1_0_0_1_n_n.rhsIdx_val_of_single rfl i q)
    (fun i q => by
      unfold DotDims.rhsIdx
      rw [dif_neg (show ¬(1 : Fin S128x256.rank) ∈ dot_S6400x128_S128x256_S6400x256_1_0_0_1_n_n.rhsBatch by decide),
        dif_pos (show (1 : Fin S128x256.rank) ∈ dot_S6400x128_S128x256_S6400x256_1_0_0_1_n_n.rhsNonContracting by decide)]
      rfl)
    none l r p j

/-- A block of 6400 rows of 4 times the [4, 256] weight stretch, from the zero accumulator, at (p, j): the sum over the 4
    contracted positions. -/
theorem rows4_product (l : FVec Ideal S6400x4 .bf16) (r : FVec Ideal S4x256 .bf16) (p : Fin 6400) (j : Fin 256) :
    matmul dot_S6400x4_S4x256_S6400x256_1_0_0_1_n_n none l r (constant S6400x256 .f32 0x00000000#32) (ix2 p j)
      = ∑ k : Fin 4, l (ix2 p k) * r (ix2 k j) :=
  matmul_zero_ix2 dot_S6400x4_S4x256_S6400x256_1_0_0_1_n_n rfl rfl
    (fun i q => by
      unfold DotDims.lhsIdx
      rw [dif_neg (show ¬(0 : Fin S6400x4.rank) ∈ dot_S6400x4_S4x256_S6400x256_1_0_0_1_n_n.lhsBatch by decide),
        dif_pos (show (0 : Fin S6400x4.rank) ∈ dot_S6400x4_S4x256_S6400x256_1_0_0_1_n_n.lhsNonContracting by decide)]
      rfl)
    (fun i q => dot_S6400x4_S4x256_S6400x256_1_0_0_1_n_n.lhsIdx_val_of_single rfl i q)
    (fun i q => dot_S6400x4_S4x256_S6400x256_1_0_0_1_n_n.rhsIdx_val_of_single rfl i q)
    (fun i q => by
      unfold DotDims.rhsIdx
      rw [dif_neg (show ¬(1 : Fin S4x256.rank) ∈ dot_S6400x4_S4x256_S6400x256_1_0_0_1_n_n.rhsBatch by decide),
        dif_pos (show (1 : Fin S4x256.rank) ∈ dot_S6400x4_S4x256_S6400x256_1_0_0_1_n_n.rhsNonContracting by decide)]
      rfl)
    none l r p j

/-- The 6400 rows of 256 hidden values times the [256, 1] weight column, from the zero accumulator, at (p, u): the sum
    over the 256 hidden units. -/
theorem hidden_product (l : FVec Ideal S6400x256 .bf16) (r : FVec Ideal S256x1 .bf16) (p : Fin 6400) (u : Fin 1) :
    matmul dot_S6400x256_S256x1_S6400x1_1_0_0_1_n_n none l r (constant S6400x1 .f32 0x00000000#32) (ix2 p u)
      = ∑ j : Fin 256, l (ix2 p j) * r (ix2 j u) :=
  matmul_zero_ix2 dot_S6400x256_S256x1_S6400x1_1_0_0_1_n_n rfl rfl
    (fun i q => by
      unfold DotDims.lhsIdx
      rw [dif_neg (show ¬(0 : Fin S6400x256.rank) ∈ dot_S6400x256_S256x1_S6400x1_1_0_0_1_n_n.lhsBatch by decide),
        dif_pos (show (0 : Fin S6400x256.rank) ∈ dot_S6400x256_S256x1_S6400x1_1_0_0_1_n_n.lhsNonContracting by decide)]
      rfl)
    (fun i q => dot_S6400x256_S256x1_S6400x1_1_0_0_1_n_n.lhsIdx_val_of_single rfl i q)
    (fun i q => dot_S6400x256_S256x1_S6400x1_1_0_0_1_n_n.rhsIdx_val_of_single rfl i q)
    (fun i q => by
      unfold DotDims.rhsIdx
      rw [dif_neg (show ¬(1 : Fin S256x1.rank) ∈ dot_S6400x256_S256x1_S6400x1_1_0_0_1_n_n.rhsBatch by decide),
        dif_pos (show (1 : Fin S256x1.rank) ∈ dot_S6400x256_S256x1_S6400x1_1_0_0_1_n_n.rhsNonContracting by decide)]
      rfl)
    none l r p u

/-- THE BODY'S STORED VALUE AT ROW p: `cell` of row p of the three input blocks, the three weight stretches as loaded,
    the first bias row, the second weight column and the second bias. -/
theorem stored_row (x0 x1 : FVec Ideal S6400x128 .bf16) (x2 : FVec Ideal S6400x4 .bf16) (x3 x4 : FVec Ideal S128x256 .bf16)
    (x5 : FVec Ideal S4x256 .bf16) (x6 : FVec Ideal S1x256 .f32) (x7 : FVec Ideal S256x1 .bf16) (x8 : FVec Ideal S1x1 .f32)
    (p : Fin 6400) (u : Fin 1) :
    k0_pay1 (F := Ideal) x0 x1 x2 x3 x4 x5 x6 x7 x8 (ix2 p u)
      = cell (fun k => x0 (ix2 p k)) (fun k => x1 (ix2 p k)) (fun k => x2 (ix2 p k))
          (fun k j => x3 (ix2 k j)) (fun k j => x4 (ix2 k j)) (fun k j => x5 (ix2 k j))
          (fun j => x6 (ix2 (0 : Fin 1) j)) (fun j => x7 (ix2 j (0 : Fin 1))) (x8 (ix2 (0 : Fin 1) (0 : Fin 1))) := by
  obtain rfl : u = 0 := Subsingleton.elim _ _
  unfold k0_pay1 cell
  simp only [shapeCast_self]
  refine congrArg Ideal.logistic ?_
  refine congrArg₂ (· + ·) ?_ (broadcastTo_1b_ab_apply x8 _ p (0 : Fin 1))
  refine (hidden_product _ x7 p 0).trans ?_
  refine Finset.sum_congr rfl fun j _ => ?_
  refine congrArg (· * x7 (ix2 j (0 : Fin 1))) ?_
  refine congrArg (max · (Ideal.ofBits .f32 0x00000000#32)) ?_
  refine congrArg₂ (· + ·) ?_ (broadcastTo_1b_ab_apply x6 _ p j)
  exact congrArg₂ (· + ·) (congrArg₂ (· + ·) (rows128_product x0 x3 p j) (rows128_product x1 x4 p j)) (rows4_product x2 x5 p j)

end Cert.KernelIdeal.Body

end
-- ==== Proof.Blocks.lean ====
/-
  From the kernel's blocks to its whole result array.

  The grid has 100 points. At point t the three edge tables are read through rows 6400·t … 6400·t + 6399, the weight
  stretches, the biases and the second weight column through their whole arrays, and rows 6400·t … 6400·t + 6399 of
  the result are written back. The arrays the windows stand on were written by the host before the region: the two
  gathered tables (kept whole, never opened here), the distance table and the second weight column as they were given
  (the change of float format is the identity on the extended reals), the three stretches of the first weight matrix
  as slices at row offsets 0, 128 and 256, and the two biases laid down as one-row matrices. So what point t writes
  back is rows 6400·t … of `mlp` of those arrays, the 100 row-blocks cover the 640000 rows, and the result array
  ends holding `mlp`.
-/
import proofs.«126675_j50568944943204_2_alg».proof.Proof.Gen.KernelIdeal.Value
import proofs.«126675_j50568944943204_2_alg».proof.Proof.BodyCell
import Idealize.ShloMosaic.Lib.ValueLayout
import Idealize.ShloMosaic.Lib.StableHlo.Run

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo Cert.EdgeMlp
open Idealize.ShloMosaic.Pipeline (Dat)

variable (m : (ℓ : Loc nD τ sig) → Buf (Elt Ideal) ℓ) (ρ : Dev nD → PrngReg)

/-! ## The windows' arrays as the region finds them -/

/-- The distance table's window stands on the distance argument itself. -/
theorem entry_dist (c : Dev nD) : (V m c main_v19 : S640000x4.Idx → EReal) = m ((c : Thread nD τ).loc main_arg2) := by
  dsimp only [Gen.V, Gen.hostOps0]; after_results; rfl

/-- The second weight column's window stands on that argument itself. -/
theorem entry_w2 (c : Dev nD) : (V m c main_v26 : S256x1.Idx → EReal) = m ((c : Thread nD τ).loc main_arg5) := by
  dsimp only [Gen.V, Gen.hostOps0]; after_results; rfl

/-- The first stretch of the first weight matrix: its rows 0 … 127. -/
theorem entry_w1_rows (c : Dev nD) : (V m c main_v21 : S128x256.Idx → EReal)
    = extractStridedSlice S128x256 ![0, 0] (m ((c : Thread nD τ).loc main_arg3)) slices_S260x256_S128x256_0_0 := by
  dsimp only [Gen.V, Gen.hostOps0]; after_results; rfl

/-- The second stretch: its rows 128 … 255. -/
theorem entry_w1_cols (c : Dev nD) : (V m c main_v23 : S128x256.Idx → EReal)
    = extractStridedSlice S128x256 ![128, 0] (m ((c : Thread nD τ).loc main_arg3)) slices_S260x256_S128x256_128_0 := by
  dsimp only [Gen.V, Gen.hostOps0]; after_results; rfl

/-- The third stretch: its rows 256 … 259. -/
theorem entry_w1_dist (c : Dev nD) : (V m c main_v25 : S4x256.Idx → EReal)
    = extractStridedSlice S4x256 ![256, 0] (m ((c : Thread nD τ).loc main_arg3)) slices_S260x256_S4x256_256_0 := by
  dsimp only [Gen.V, Gen.hostOps0]; after_results; rfl

/-- The first bias laid down as a one-row matrix. -/
theorem entry_b1 (c : Dev nD) : (V m c main_v27 : S1x256.Idx → EReal)
    = shapeCast S1x256 (m ((c : Thread nD τ).loc main_arg4)) shapeCasts_S256_S1x256 := by
  dsimp only [Gen.V, Gen.hostOps0]; after_results; rfl

/-- The second bias laid down as a one-entry matrix. -/
theorem entry_b2 (c : Dev nD) : (V m c main_v28 : S1x1.Idx → EReal)
    = shapeCast S1x1 (m ((c : Thread nD τ).loc main_arg6)) shapeCasts_S1_S1x1 := by
  dsimp only [Gen.V, Gen.hostOps0]; after_results; rfl

/-- Entry (k, j) of the first stretch is entry (k, j) of the weight matrix. -/
theorem w1_rows_at (c : Dev nD) (k : Fin 128) (j : Fin 256) :
    V m c main_v21 (ix2 k j) = m ((c : Thread nD τ).loc main_arg3) (ix2 (⟨k.val, by omega⟩ : Fin 260) j) :=
  (congrFun (entry_w1_rows m c) (ix2 k j)).trans
    (extractStridedSlice_apply ![0, 0] _ slices_S260x256_S128x256_0_0 (ix2 k j) (ix2 (⟨k.val, by omega⟩ : Fin 260) j)
      (fun a => match a with
        | ⟨0, _⟩ => by show k.val = 0 + k.val; omega
        | ⟨1, _⟩ => by show j.val = 0 + j.val; omega))

/-- Entry (k, j) of the second stretch is entry (128 + k, j) of the weight matrix. -/
theorem w1_cols_at (c : Dev nD) (k : Fin 128) (j : Fin 256) :
    V m c main_v23 (ix2 k j) = m ((c : Thread nD τ).loc main_arg3) (ix2 (⟨128 + k.val, by omega⟩ : Fin 260) j) :=
  (congrFun (entry_w1_cols m c) (ix2 k j)).trans
    (extractStridedSlice_apply ![128, 0] _ slices_S260x256_S128x256_128_0 (ix2 k j) (ix2 (⟨128 + k.val, by omega⟩ : Fin 260) j)
      (fun a => match a with
        | ⟨0, _⟩ => by show 128 + k.val = 128 + k.val; omega
        | ⟨1, _⟩ => by show j.val = 0 + j.val; omega))

/-- Entry (k, j) of the third stretch is entry (256 + k, j) of the weight matrix. -/
theorem w1_dist_at (c : Dev nD) (k : Fin 4) (j : Fin 256) :
    V m c main_v25 (ix2 k j) = m ((c : Thread nD τ).loc main_arg3) (ix2 (⟨256 + k.val, by omega⟩ : Fin 260) j) :=
  (congrFun (entry_w1_dist m c) (ix2 k j)).trans
    (extractStridedSlice_apply ![256, 0] _ slices_S260x256_S4x256_256_0 (ix2 k j) (ix2 (⟨256 + k.val, by omega⟩ : Fin 260) j)
      (fun a => match a with
        | ⟨0, _⟩ => by show 256 + k.val = 256 + k.val; omega
        | ⟨1, _⟩ => by show j.val = 0 + j.val; omega))

/-- Entry (0, j) of the bias row is entry j of the first bias. -/
theorem b1_at (c : Dev nD) (j : Fin 256) : V m c main_v27 (ix2 (0 : Fin 1) j) = m ((c : Thread nD τ).loc main_arg4) (ix1 j) :=
  (congrFun (entry_b1 m c) (ix2 (0 : Fin 1) j)).trans (shapeCast_a_1a_apply _ shapeCasts_S256_S1x256 (0 : Fin 1) j)

/-- The one entry of the second bias's matrix is the second bias. -/
theorem b2_at (c : Dev nD) : V m c main_v28 (ix2 (0 : Fin 1) (0 : Fin 1)) = m ((c : Thread nD τ).loc main_arg6) (ix1 (0 : Fin 1)) :=
  (congrFun (entry_b2 m c) (ix2 (0 : Fin 1) (0 : Fin 1))).trans (shapeCast_a_1a_apply _ shapeCasts_S1_S1x1 (0 : Fin 1) (0 : Fin 1))

/-! ## The index maps over the grid -/

/-- The printed index maps, decided over the 100 points: the three edge tables and the result move by one block of rows
    per point, every other window stays on its whole array. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem point_lt (t : Fin cfg0.N) : t.val < 100 := lt_of_lt_of_eq t.isLt N_0

/-- Row p of point t's block is a row of the 640000. -/
theorem row_lt (t : Fin cfg0.N) (p : Fin 6400) : t.val * 6400 + p.val < 640000 := by
  have := point_lt t; have := p.isLt; omega

/-! ## The blocks read where the result's row says -/

/-- Row p of point t's block of the first gathered table is row 6400·t + p of the table. -/
theorem row_block (c : Dev nD) (t : Fin cfg0.N) (p : Fin 6400) (k : Fin 128) :
    iblk m c 0 t (ix2 p k) = V m c main_v11 (ix2 (⟨t.val * 6400 + p.val, row_lt t p⟩ : Fin 640000) k) := by
  obtain ⟨e0a, e0b, e1a, e1b, e2a, e2b, e3a, e3b, e4a, e4b, e5a, e5b, e6a, e6b, e7a, e7b, e8a, e8b, e9a, e9b⟩ := idx_facts t
  have h : ((cfg0.win 0).blk t).view.emb (ix2 p k) = ix2 (⟨t.val * 6400 + p.val, row_lt t p⟩ : Fin 640000) k := by
    funext a; apply Fin.ext
    match a with
    | ⟨0, _⟩ => show win0_0.index t (0 : Fin 2) * 6400 + 1 * p.val = t.val * 6400 + p.val; rw [e0a]; omega
    | ⟨1, _⟩ => show win0_0.index t (1 : Fin 2) * 128 + 1 * k.val = k.val; rw [e0b]; omega
  show V m c main_v11 (((cfg0.win 0).blk t).view.emb (ix2 p k)) = _
  rw [h]

/-- Row p of point t's block of the second gathered table is row 6400·t + p of the table. -/
theorem col_block (c : Dev nD) (t : Fin cfg0.N) (p : Fin 6400) (k : Fin 128) :
    iblk m c 1 t (ix2 p k) = V m c main_v18 (ix2 (⟨t.val * 6400 + p.val, row_lt t p⟩ : Fin 640000) k) := by
  obtain ⟨e0a, e0b, e1a, e1b, e2a, e2b, e3a, e3b, e4a, e4b, e5a, e5b, e6a, e6b, e7a, e7b, e8a, e8b, e9a, e9b⟩ := idx_facts t
  have h : ((cfg0.win 1).blk t).view.emb (ix2 p k) = ix2 (⟨t.val * 6400 + p.val, row_lt t p⟩ : Fin 640000) k := by
    funext a; apply Fin.ext
    match a with
    | ⟨0, _⟩ => show win0_1.index t (0 : Fin 2) * 6400 + 1 * p.val = t.val * 6400 + p.val; rw [e1a]; omega
    | ⟨1, _⟩ => show win0_1.index t (1 : Fin 2) * 128 + 1 * k.val = k.val; rw [e1b]; omega
  show V m c main_v18 (((cfg0.win 1).blk t).view.emb (ix2 p k)) = _
  rw [h]

/-- Row p of point t's block of the distance table is row 6400·t + p of the table. -/
theorem dist_block (c : Dev nD) (t : Fin cfg0.N) (p : Fin 6400) (k : Fin 4) :
    iblk m c 2 t (ix2 p k) = V m c main_v19 (ix2 (⟨t.val * 6400 + p.val, row_lt t p⟩ : Fin 640000) k) := by
  obtain ⟨e0a, e0b, e1a, e1b, e2a, e2b, e3a, e3b, e4a, e4b, e5a, e5b, e6a, e6b, e7a, e7b, e8a, e8b, e9a, e9b⟩ := idx_facts t
  have h : ((cfg0.win 2).blk t).view.emb (ix2 p k) = ix2 (⟨t.val * 6400 + p.val, row_lt t p⟩ : Fin 640000) k := by
    funext a; apply Fin.ext
    match a with
    | ⟨0, _⟩ => show win0_2.index t (0 : Fin 2) * 6400 + 1 * p.val = t.val * 6400 + p.val; rw [e2a]; omega
    | ⟨1, _⟩ => show win0_2.index t (1 : Fin 2) * 4 + 1 * k.val = k.val; rw [e2b]; omega
  show V m c main_v19 (((cfg0.win 2).blk t).view.emb (ix2 p k)) = _
  rw [h]

/-- The first weight stretch's block is its whole array at every point. -/
theorem w1_rows_block (c : Dev nD) (t : Fin cfg0.N) (k : Fin 128) (j : Fin 256) :
    iblk m c 3 t (ix2 k j) = V m c main_v21 (ix2 k j) := by
  obtain ⟨e0a, e0b, e1a, e1b, e2a, e2b, e3a, e3b, e4a, e4b, e5a, e5b, e6a, e6b, e7a, e7b, e8a, e8b, e9a, e9b⟩ := idx_facts t
  have h : ((cfg0.win 3).blk t).view.emb (ix2 k j) = ix2 k j := by
    funext a; apply Fin.ext
    match a with
    | ⟨0, _⟩ => show win0_3.index t (0 : Fin 2) * 128 + 1 * k.val = k.val; rw [e3a]; omega
    | ⟨1, _⟩ => show win0_3.index t (1 : Fin 2) * 256 + 1 * j.val = j.val; rw [e3b]; omega
  show V m c main_v21 (((cfg0.win 3).blk t).view.emb (ix2 k j)) = _
  rw [h]

/-- The second weight stretch's block is its whole array at every point. -/
theorem w1_cols_block (c : Dev nD) (t : Fin cfg0.N) (k : Fin 128) (j : Fin 256) :
    iblk m c 4 t (ix2 k j) = V m c main_v23 (ix2 k j) := by
  obtain ⟨e0a, e0b, e1a, e1b, e2a, e2b, e3a, e3b, e4a, e4b, e5a, e5b, e6a, e6b, e7a, e7b, e8a, e8b, e9a, e9b⟩ := idx_facts t
  have h : ((cfg0.win 4).blk t).view.emb (ix2 k j) = ix2 k j := by
    funext a; apply Fin.ext
    match a with
    | ⟨0, _⟩ => show win0_4.index t (0 : Fin 2) * 128 + 1 * k.val = k.val; rw [e4a]; omega
    | ⟨1, _⟩ => show win0_4.index t (1 : Fin 2) * 256 + 1 * j.val = j.val; rw [e4b]; omega
  show V m c main_v23 (((cfg0.win 4).blk t).view.emb (ix2 k j)) = _
  rw [h]

/-- The third weight stretch's block is its whole array at every point. -/
theorem w1_dist_block (c : Dev nD) (t : Fin cfg0.N) (k : Fin 4) (j : Fin 256) :
    iblk m c 5 t (ix2 k j) = V m c main_v25 (ix2 k j) := by
  obtain ⟨e0a, e0b, e1a, e1b, e2a, e2b, e3a, e3b, e4a, e4b, e5a, e5b, e6a, e6b, e7a, e7b, e8a, e8b, e9a, e9b⟩ := idx_facts t
  have h : ((cfg0.win 5).blk t).view.emb (ix2 k j) = ix2 k j := by
    funext a; apply Fin.ext
    match a with
    | ⟨0, _⟩ => show win0_5.index t (0 : Fin 2) * 4 + 1 * k.val = k.val; rw [e5a]; omega
    | ⟨1, _⟩ => show win0_5.index t (1 : Fin 2) * 256 + 1 * j.val = j.val; rw [e5b]; omega
  show V m c main_v25 (((cfg0.win 5).blk t).view.emb (ix2 k j)) = _
  rw [h]

/-- The bias row's block is its whole array at every point. -/
theorem b1_block (c : Dev nD) (t : Fin cfg0.N) (k : Fin 1) (j : Fin 256) :
    iblk m c 6 t (ix2 k j) = V m c main_v27 (ix2 k j) := by
  obtain ⟨e0a, e0b, e1a, e1b, e2a, e2b, e3a, e3b, e4a, e4b, e5a, e5b, e6a, e6b, e7a, e7b, e8a, e8b, e9a, e9b⟩ := idx_facts t
  have h : ((cfg0.win 6).blk t).view.emb (ix2 k j) = ix2 k j := by
    funext a; apply Fin.ext
    match a with
    | ⟨0, _⟩ => show win0_6.index t (0 : Fin 2) * 1 + 1 * k.val = k.val; rw [e6a]; omega
    | ⟨1, _⟩ => show win0_6.index t (1 : Fin 2) * 256 + 1 * j.val = j.val; rw [e6b]; omega
  show V m c main_v27 (((cfg0.win 6).blk t).view.emb (ix2 k j)) = _
  rw [h]

/-- The second weight column's block is its whole array at every point. -/
theorem w2_block (c : Dev nD) (t : Fin cfg0.N) (k : Fin 256) (j : Fin 1) :
    iblk m c 7 t (ix2 k j) = V m c main_v26 (ix2 k j) := by
  obtain ⟨e0a, e0b, e1a, e1b, e2a, e2b, e3a, e3b, e4a, e4b, e5a, e5b, e6a, e6b, e7a, e7b, e8a, e8b, e9a, e9b⟩ := idx_facts t
  have h : ((cfg0.win 7).blk t).view.emb (ix2 k j) = ix2 k j := by
    funext a; apply Fin.ext
    match a with
    | ⟨0, _⟩ => show win0_7.index t (0 : Fin 2) * 256 + 1 * k.val = k.val; rw [e7a]; omega
    | ⟨1, _⟩ => show win0_7.index t (1 : Fin 2) * 1 + 1 * j.val = j.val; rw [e7b]; omega
  show V m c main_v26 (((cfg0.win 7).blk t).view.emb (ix2 k j)) = _
  rw [h]

/-- The second bias's block is its whole array at every point. -/
theorem b2_block (c : Dev nD) (t : Fin cfg0.N) (k : Fin 1) (j : Fin 1) :
    iblk m c 8 t (ix2 k j) = V m c main_v28 (ix2 k j) := by
  obtain ⟨e0a, e0b, e1a, e1b, e2a, e2b, e3a, e3b, e4a, e4b, e5a, e5b, e6a, e6b, e7a, e7b, e8a, e8b, e9a, e9b⟩ := idx_facts t
  have h : ((cfg0.win 8).blk t).view.emb (ix2 k j) = ix2 k j := by
    funext a; apply Fin.ext
    match a with
    | ⟨0, _⟩ => show win0_8.index t (0 : Fin 2) * 1 + 1 * k.val = k.val; rw [e8a]; omega
    | ⟨1, _⟩ => show win0_8.index t (1 : Fin 2) * 1 + 1 * j.val = j.val; rw [e8b]; omega
  show V m c main_v28 (((cfg0.win 8).blk t).view.emb (ix2 k j)) = _
  rw [h]

/-! ## What a point writes back -/

/-- The result array the kernel is to end with: `mlp` of the two gathered tables as the region finds them and of the
    arguments. -/
def result (c : Dev nD) : S640000x1.Idx → EReal :=
  mlp (V m c main_v11) (V m c main_v18) (m ((c : Thread nD τ).loc main_arg2)) (m ((c : Thread nD τ).loc main_arg3))
    (m ((c : Thread nD τ).loc main_arg4)) (m ((c : Thread nD τ).loc main_arg5)) (m ((c : Thread nD τ).loc main_arg6))

/-- Equal rows, weights and biases give equal cells. -/
theorem cell_congr {r r' c c' : Fin 128 → EReal} {d d' : Fin 4 → EReal} {wr wr' wc wc' : Fin 128 → Fin 256 → EReal}
    {we we' : Fin 4 → Fin 256 → EReal} {b b' w2 w2' : Fin 256 → EReal} {b2 b2' : EReal}
    (h0 : r = r') (h1 : c = c') (h2 : d = d') (h3 : wr = wr') (h4 : wc = wc') (h5 : we = we') (h6 : b = b') (h7 : w2 = w2')
    (h8 : b2 = b2') : cell r c d wr wc we b w2 b2 = cell r' c' d' wr' wc' we' b' w2' b2' := by
  subst h0 h1 h2 h3 h4 h5 h6 h7 h8; rfl

/-- Row p of what the body stores at point t is row 6400·t + p of `result`. -/
theorem stored_at (c : Dev nD) (t : Fin cfg0.N) (p : Fin 6400) (u : Fin 1) :
    k0_pay1 (F := Ideal) (iblk m c 0 t) (iblk m c 1 t) (iblk m c 2 t) (iblk m c 3 t) (iblk m c 4 t) (iblk m c 5 t)
        (iblk m c 6 t) (iblk m c 7 t) (iblk m c 8 t) (ix2 p u)
      = result m c (ix2 (⟨t.val * 6400 + p.val, row_lt t p⟩ : Fin 640000) u) := by
  refine (Body.stored_row (iblk m c 0 t) (iblk m c 1 t) (iblk m c 2 t) (iblk m c 3 t) (iblk m c 4 t) (iblk m c 5 t)
    (iblk m c 6 t) (iblk m c 7 t) (iblk m c 8 t) p u).trans ?_
  unfold result mlp
  exact cell_congr
    (funext fun k => row_block m c t p k)
    (funext fun k => col_block m c t p k)
    (funext fun k => (dist_block m c t p k).trans (congrFun (entry_dist m c) _))
    (funext fun k => funext fun j => (w1_rows_block m c t k j).trans (w1_rows_at m c k j))
    (funext fun k => funext fun j => (w1_cols_block m c t k j).trans (w1_cols_at m c k j))
    (funext fun k => funext fun j => (w1_dist_block m c t k j).trans (w1_dist_at m c k j))
    (funext fun j => (b1_block m c t (0 : Fin 1) j).trans (b1_at m c j))
    (funext fun j => (w2_block m c t j (0 : Fin 1)).trans (congrFun (entry_w2 m c) _))
    ((b2_block m c t (0 : Fin 1) (0 : Fin 1)).trans (b2_at m c))

theorem origin : (![0, 0] : Fin 2 → Nat) = fun _ => 0 := funext fun a => by fin_cases a <;> rfl

/-- WHAT POINT t WRITES BACK is block t of `result`. -/
theorem flushed_eq (c : Dev nD) (t : Fin cfg0.N) :
    (dats m 0 c).flushed 9 t = ((cfg0.win 9).blk t).view.read (Elt Ideal) (result m c) := by
  rw [Value.flushed9]
  unfold out0_9
  rw [View.canon_unit_zero origin]
  simp only [View.ld_unit_zero (S := S6400x128) origin, View.ld_unit_zero (S := S6400x4) origin,
    View.ld_unit_zero (S := S128x256) origin, View.ld_unit_zero (S := S4x256) origin,
    View.ld_unit_zero (S := S1x256) origin, View.ld_unit_zero (S := S256x1) origin, View.ld_unit_zero (S := S1x1) origin]
  refine funext fun (y : S6400x1.Idx) => ?_
  obtain ⟨p, u, rfl⟩ : ∃ (p : Fin 6400) (u : Fin 1), y = ix2 p u := ⟨y 0, y 1, eq_ix2 y⟩
  obtain ⟨e0a, e0b, e1a, e1b, e2a, e2b, e3a, e3b, e4a, e4b, e5a, e5b, e6a, e6b, e7a, e7b, e8a, e8b, e9a, e9b⟩ := idx_facts t
  have h : ((cfg0.win 9).blk t).view.emb (ix2 p u) = ix2 (⟨t.val * 6400 + p.val, row_lt t p⟩ : Fin 640000) u := by
    funext a; apply Fin.ext
    match a with
    | ⟨0, _⟩ => show win0_9.index t (0 : Fin 2) * 6400 + 1 * p.val = t.val * 6400 + p.val; rw [e9a]; omega
    | ⟨1, _⟩ => show win0_9.index t (1 : Fin 2) * 1 + 1 * u.val = u.val; rw [e9b]; omega
  show k0_pay1 (F := Ideal) (iblk m c 0 t) (iblk m c 1 t) (iblk m c 2 t) (iblk m c 3 t) (iblk m c 4 t) (iblk m c 5 t)
      (iblk m c 6 t) (iblk m c 7 t) (iblk m c 8 t) (ix2 p u) = result m c (((cfg0.win 9).blk t).view.emb (ix2 p u))
  rw [h]
  exact stored_at m c t p u

/-! ## The blocks cover the array -/

/-- An index of the result array is in point t's block iff each coordinate is in the block's range on its axis. -/
theorem mem_block (t : Fin cfg0.N) (i : S640000x1.Idx) :
    i ∈ ((cfg0.win 9).blk t).view.set
      ↔ ∀ a : Fin 2, win0_9.index t a * S6400x1.size a ≤ (i a).val ∧ (i a).val < win0_9.index t a * S6400x1.size a + S6400x1.size a := by
  show i ∈ ((View.whole main_v29).slice (win0_9.rect t)).set ↔ _
  rw [View.set_slice_whole, Rect.mem_set_unit]
  exact Iff.rfl

/-- Row r of the result is in the block of point r / 6400, which writes back. -/
theorem covered (i : S640000x1.Idx) :
    ∃ t : Fin cfg0.N, (cfg0.win 9).flush t = true ∧ i ∈ ((cfg0.win 9).blk t).view.set := by
  have hi0 : (i 0).val < 640000 := (i 0).isLt
  have hi1 : (i 1).val < 1 := (i 1).isLt
  obtain ⟨t, ht⟩ : ∃ t : Fin cfg0.N, t.val = (i 0).val / 6400 :=
    ⟨⟨(i 0).val / 6400, lt_of_lt_of_eq (show (i 0).val / 6400 < 100 by omega) N_0.symm⟩, rfl⟩
  obtain ⟨e0a, e0b, e1a, e1b, e2a, e2b, e3a, e3b, e4a, e4b, e5a, e5b, e6a, e6b, e7a, e7b, e8a, e8b, e9a, e9b⟩ := idx_facts t
  refine ⟨t, flush0_9 t, ?_⟩
  rw [mem_block]
  intro a
  match a with
  | ⟨0, _⟩ =>
    show win0_9.index t (0 : Fin 2) * 6400 ≤ (i 0).val ∧ (i 0).val < win0_9.index t (0 : Fin 2) * 6400 + 6400
    rw [e9a, ht]; omega
  | ⟨1, _⟩ =>
    show win0_9.index t (1 : Fin 2) * 1 ≤ (i 1).val ∧ (i 1).val < win0_9.index t (1 : Fin 2) * 1 + 1
    rw [e9b]; omega

/-- THE RESULT ARRAY after the run is `result`. -/
theorem final (c : Dev nD) : (dats m 0 c).arrAt 9 cfg0.N = result m c :=
  (dats m 0 c).arrAt_eq_of_cover 9 (result m c) (fun t _ => flushed_eq m c t) covered

/-! ## The run, read -/

/-- Every weakly fair execution of the kernel's program terminates with the result array at `result` and the arguments
    as they were. -/
theorem run : θ_run defs (onTc (τ := τ) (main (F := Ideal))) ⟨m, fun _ => 0, ρ⟩ fun r => ∀ c : Dev nD,
      r.2.mem ((c : Thread nD τ).loc main_v29) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Blocks

end
-- ==== Proof.LibConcatCols.lean ====
/-
  Concatenations of matrices read at an entry.

  Side by side (along the columns): two blocks [a, n₁] | [a, n₂], and three blocks [a, n₁] | [a, n₂] | [a, n₃]; entry
  (p, j) of the result is entry (p, j − the widths before it) of the block whose span holds column j.
  One under another (along the rows): three blocks of [r₁, b], [r₂, b], [r₃, b] rows.
-/
import Idealize.ShloMosaic.Lib.Pipeline.Value
import Idealize.ShloMosaic.Lib.ValueIdx

namespace Cert.Lib

open Idealize.ShloMosaic Idealize.ShloMosaic.ValueIdx

variable {α : Type} {a n n₁ n₂ n₃ : Nat}

/-- Two blocks side by side, read in the left block. -/
theorem concat2_cols_left (x : (⟨2, ![a, n₁]⟩ : Shape).Idx → α) (y : (⟨2, ![a, n₂]⟩ : Shape).Idx → α)
    (h : Shape.Concatenates [⟨2, ![a, n₁]⟩, ⟨2, ![a, n₂]⟩] ⟨2, ![a, n]⟩ 1) (p : Fin a) (j : Fin n) (q : Fin n₁)
    (hq : q.val = j.val) :
    concatenate ⟨2, ![a, n]⟩ 1 [⟨⟨2, ![a, n₁]⟩, x⟩, ⟨⟨2, ![a, n₂]⟩, y⟩] h (ix2 p j) = x (ix2 p q) :=
  concatenate_apply_piece (t := ⟨2, ![a, n]⟩) 1 [⟨⟨2, ![a, n₁]⟩, x⟩, ⟨⟨2, ![a, n₂]⟩, y⟩] h (ix2 p j) 0 (by simp) _ x rfl rfl 0 rfl (ix2 p q)
    (fun b hb => by
      match b with
      | ⟨0, _⟩ => rfl
      | ⟨1, _⟩ => exact absurd rfl hb)
    (by show 0 + q.val = j.val; omega)

/-- Two blocks side by side, read in the right block. -/
theorem concat2_cols_right (x : (⟨2, ![a, n₁]⟩ : Shape).Idx → α) (y : (⟨2, ![a, n₂]⟩ : Shape).Idx → α)
    (h : Shape.Concatenates [⟨2, ![a, n₁]⟩, ⟨2, ![a, n₂]⟩] ⟨2, ![a, n]⟩ 1) (p : Fin a) (j : Fin n) (q : Fin n₂)
    (hq : n₁ + q.val = j.val) :
    concatenate ⟨2, ![a, n]⟩ 1 [⟨⟨2, ![a, n₁]⟩, x⟩, ⟨⟨2, ![a, n₂]⟩, y⟩] h (ix2 p j) = y (ix2 p q) :=
  concatenate_apply_piece (t := ⟨2, ![a, n]⟩) 1 [⟨⟨2, ![a, n₁]⟩, x⟩, ⟨⟨2, ![a, n₂]⟩, y⟩] h (ix2 p j) 1 (by simp) _ y rfl rfl n₁
    (by simp) (ix2 p q)
    (fun b hb => by
      match b with
      | ⟨0, _⟩ => rfl
      | ⟨1, _⟩ => exact absurd rfl hb)
    (by show n₁ + q.val = j.val; omega)

/-- Three blocks side by side, read in the first. -/
theorem concat3_cols_fst (x : (⟨2, ![a, n₁]⟩ : Shape).Idx → α) (y : (⟨2, ![a, n₂]⟩ : Shape).Idx → α) (z : (⟨2, ![a, n₃]⟩ : Shape).Idx → α)
    (h : Shape.Concatenates [⟨2, ![a, n₁]⟩, ⟨2, ![a, n₂]⟩, ⟨2, ![a, n₃]⟩] ⟨2, ![a, n]⟩ 1) (p : Fin a) (j : Fin n) (q : Fin n₁)
    (hq : q.val = j.val) :
    concatenate ⟨2, ![a, n]⟩ 1 [⟨⟨2, ![a, n₁]⟩, x⟩, ⟨⟨2, ![a, n₂]⟩, y⟩, ⟨⟨2, ![a, n₃]⟩, z⟩] h (ix2 p j) = x (ix2 p q) :=
  concatenate_apply_piece (t := ⟨2, ![a, n]⟩) 1 [⟨⟨2, ![a, n₁]⟩, x⟩, ⟨⟨2, ![a, n₂]⟩, y⟩, ⟨⟨2, ![a, n₃]⟩, z⟩] h (ix2 p j) 0 (by simp) _ x rfl rfl 0 rfl (ix2 p q)
    (fun b hb => by
      match b with
      | ⟨0, _⟩ => rfl
      | ⟨1, _⟩ => exact absurd rfl hb)
    (by show 0 + q.val = j.val; omega)

/-- Three blocks side by side, read in the second. -/
theorem concat3_cols_snd (x : (⟨2, ![a, n₁]⟩ : Shape).Idx → α) (y : (⟨2, ![a, n₂]⟩ : Shape).Idx → α) (z : (⟨2, ![a, n₃]⟩ : Shape).Idx → α)
    (h : Shape.Concatenates [⟨2, ![a, n₁]⟩, ⟨2, ![a, n₂]⟩, ⟨2, ![a, n₃]⟩] ⟨2, ![a, n]⟩ 1) (p : Fin a) (j : Fin n) (q : Fin n₂)
    (hq : n₁ + q.val = j.val) :
    concatenate ⟨2, ![a, n]⟩ 1 [⟨⟨2, ![a, n₁]⟩, x⟩, ⟨⟨2, ![a, n₂]⟩, y⟩, ⟨⟨2, ![a, n₃]⟩, z⟩] h (ix2 p j) = y (ix2 p q) :=
  concatenate_apply_piece (t := ⟨2, ![a, n]⟩) 1 [⟨⟨2, ![a, n₁]⟩, x⟩, ⟨⟨2, ![a, n₂]⟩, y⟩, ⟨⟨2, ![a, n₃]⟩, z⟩] h (ix2 p j) 1 (by simp) _ y rfl rfl n₁
    (by simp) (ix2 p q)
    (fun b hb => by
      match b with
      | ⟨0, _⟩ => rfl
      | ⟨1, _⟩ => exact absurd rfl hb)
    (by show n₁ + q.val = j.val; omega)

/-- Three blocks side by side, read in the third. -/
theorem concat3_cols_thd (x : (⟨2, ![a, n₁]⟩ : Shape).Idx → α) (y : (⟨2, ![a, n₂]⟩ : Shape).Idx → α) (z : (⟨2, ![a, n₃]⟩ : Shape).Idx → α)
    (h : Shape.Concatenates [⟨2, ![a, n₁]⟩, ⟨2, ![a, n₂]⟩, ⟨2, ![a, n₃]⟩] ⟨2, ![a, n]⟩ 1) (p : Fin a) (j : Fin n) (q : Fin n₃)
    (hq : n₁ + n₂ + q.val = j.val) :
    concatenate ⟨2, ![a, n]⟩ 1 [⟨⟨2, ![a, n₁]⟩, x⟩, ⟨⟨2, ![a, n₂]⟩, y⟩, ⟨⟨2, ![a, n₃]⟩, z⟩] h (ix2 p j) = z (ix2 p q) :=
  concatenate_apply_piece (t := ⟨2, ![a, n]⟩) 1 [⟨⟨2, ![a, n₁]⟩, x⟩, ⟨⟨2, ![a, n₂]⟩, y⟩, ⟨⟨2, ![a, n₃]⟩, z⟩] h (ix2 p j) 2 (by simp) _ z rfl rfl (n₁ + n₂)
    (by simp) (ix2 p q)
    (fun b hb => by
      match b with
      | ⟨0, _⟩ => rfl
      | ⟨1, _⟩ => exact absurd rfl hb)
    (by show n₁ + n₂ + q.val = j.val; omega)

variable {b r₁ r₂ r₃ : Nat}

/-- Three blocks one under another, read in block `k` (of one row each when the blocks are rows). -/
theorem concat3_rows_one (x y z : (⟨2, ![1, b]⟩ : Shape).Idx → α)
    (h : Shape.Concatenates [⟨2, ![1, b]⟩, ⟨2, ![1, b]⟩, ⟨2, ![1, b]⟩] ⟨2, ![3, b]⟩ 0) (k : Fin 3) (e : Fin b) :
    concatenate ⟨2, ![3, b]⟩ 0 [⟨⟨2, ![1, b]⟩, x⟩, ⟨⟨2, ![1, b]⟩, y⟩, ⟨⟨2, ![1, b]⟩, z⟩] h (ix2 k e)
      = (![x, y, z] k) (ix2 (0 : Fin 1) e) := by
  match k with
  | ⟨0, _⟩ =>
    exact concatenate_apply_piece (t := ⟨2, ![3, b]⟩) 0 [⟨⟨2, ![1, b]⟩, x⟩, ⟨⟨2, ![1, b]⟩, y⟩, ⟨⟨2, ![1, b]⟩, z⟩] h (ix2 _ e) 0 (by simp) _ x rfl rfl 0 rfl (ix2 0 e)
      (fun c hc => by
        match c with
        | ⟨0, _⟩ => exact absurd rfl hc
        | ⟨1, _⟩ => rfl) rfl
  | ⟨1, _⟩ =>
    exact concatenate_apply_piece (t := ⟨2, ![3, b]⟩) 0 [⟨⟨2, ![1, b]⟩, x⟩, ⟨⟨2, ![1, b]⟩, y⟩, ⟨⟨2, ![1, b]⟩, z⟩] h (ix2 _ e) 1 (by simp) _ y rfl rfl 1 (by simp) (ix2 0 e)
      (fun c hc => by
        match c with
        | ⟨0, _⟩ => exact absurd rfl hc
        | ⟨1, _⟩ => rfl) rfl
  | ⟨2, _⟩ =>
    exact concatenate_apply_piece (t := ⟨2, ![3, b]⟩) 0 [⟨⟨2, ![1, b]⟩, x⟩, ⟨⟨2, ![1, b]⟩, y⟩, ⟨⟨2, ![1, b]⟩, z⟩] h (ix2 _ e) 2 (by simp) _ z rfl rfl 2 (by simp) (ix2 0 e)
      (fun c hc => by
        match c with
        | ⟨0, _⟩ => exact absurd rfl hc
        | ⟨1, _⟩ => rfl) rfl

end Cert.Lib
-- ==== Proof.LibSumThree.lean ====
/-
  A finite sum over n = a + b + c consecutive positions is the sum over the first a, plus the sum over the next b,
  plus the sum over the last c — in any commutative additive monoid, so also on the extended reals, where no
  finiteness is needed: only the grouping of the terms changes, never a product or a difference.
-/
import Mathlib.Algebra.BigOperators.Fin

open scoped BigOperators

namespace Cert.Lib

/-- The sum over `Fin (a + b + c)` by its three stretches, each position named by the stretch's own coordinate. -/
theorem sum_fin_add3 {M : Type*} [AddCommMonoid M] (a b c : ℕ) (f : Fin (a + b + c) → M) :
    ∑ i, f i = (∑ i : Fin a, f (Fin.castAdd c (Fin.castAdd b i)) + ∑ i : Fin b, f (Fin.castAdd c (Fin.natAdd a i)))
      + ∑ i : Fin c, f (Fin.natAdd (a + b) i) := by
  rw [Fin.sum_univ_add, Fin.sum_univ_add]

/-- The same with the positions written by their values: position `k` of the first stretch is `k`, of the second
    `a + k`, of the third `a + b + k`. -/
theorem sum_three_stretches {M : Type*} [AddCommMonoid M] {n : ℕ} (a b c : ℕ) (h : n = a + b + c) (g : Fin n → M) :
    ∑ k, g k = (∑ k : Fin a, g ⟨k.val, by omega⟩ + ∑ k : Fin b, g ⟨a + k.val, by omega⟩)
      + ∑ k : Fin c, g ⟨a + b + k.val, by omega⟩ := by
  subst h
  exact sum_fin_add3 a b c g

end Cert.Lib
-- ==== Proof.RefCell.lean ====
/-
  The reference computes `mlp` of the two gathered tables.

  The reference lays each edge's two gathered rows and its distances side by side into one row of 260 and multiplies
  that row into the whole [260, 256] weight matrix. Column k of the joined row is the first table's column k for
  k < 128, the second table's column k − 128 for 128 ≤ k < 256, the distance table's column k − 256 beyond; so the sum
  over the 260 contracted positions is the sum of its three stretches, each stretch a product against its own rows of
  the weight matrix. That regrouping of a finite sum is all that separates the two programs' hidden layers, and it holds
  on the extended reals as it stands. The clamp at zero, the second product and its bias are the same on both sides, and
  the reference's 1 / (1 + exp (−x)), its two ones being the word of 1, is the logistic function by definition.
  The gathered tables are never opened: they enter as whole arrays.
-/
import proofs.«126675_j50568944943204_2_alg».proof.Proof.Gen.ReferenceIdeal.Read
import proofs.«126675_j50568944943204_2_alg».proof.Proof.EdgeMlp
import proofs.«126675_j50568944943204_2_alg».proof.Proof.LibConcatCols
import proofs.«126675_j50568944943204_2_alg».proof.Proof.LibSumThree
import Idealize.ShloMosaic.PureOps.IdealRules

noncomputable section

open scoped BigOperators

namespace Cert.ReferenceIdeal.RefCell

open Cert.ReferenceIdeal Cert.ReferenceIdeal.Gen Cert.ReferenceIdeal.Read Idealize.ShloMosaic Idealize.ShloMosaic.ValueIdx
open Cert.EdgeMlp Cert.Lib

/-- A sum over the 260 joined columns by its stretches of 128, 128 and 4. -/
theorem sum_joined (g : Fin 260 → EReal) :
    ∑ k, g k = (∑ k : Fin 128, g ⟨k.val, by omega⟩ + ∑ k : Fin 128, g ⟨128 + k.val, by omega⟩)
      + ∑ k : Fin 4, g ⟨256 + k.val, by omega⟩ :=
  sum_three_stretches 128 128 4 rfl g

/-- The word of 1.0 is the number 1. -/
theorem one_word : Ideal.ofBits .f32 0x3F800000#32 = 1 := IdealRules.sign_bit.ideal_onePat .f32

/-- One edge's row of the joined table times one column of the weight matrix: the three stretches' products. -/
theorem joined_product (R C : (⟨S640000x128, .f32⟩ : BufTy).Contents (Elt Ideal)) (D : (⟨S640000x4, .f32⟩ : BufTy).Contents (Elt Ideal))
    (W : (⟨S260x256, .f32⟩ : BufTy).Contents (Elt Ideal)) (e : Fin 640000) (j : Fin 256) :
    ∑ k : Fin 260, concatenate S640000x260 1 [⟨S640000x128, R⟩, ⟨S640000x128, C⟩, ⟨S640000x4, D⟩] concatenates_S640000x128_S640000x128_S640000x4_S640000x260_d1 (ix2 e k) * W (ix2 k j)
      = ((∑ k : Fin 128, R (ix2 e k) * W (ix2 (⟨k.val, by omega⟩ : Fin 260) j))
          + ∑ k : Fin 128, C (ix2 e k) * W (ix2 (⟨128 + k.val, by omega⟩ : Fin 260) j))
        + ∑ k : Fin 4, D (ix2 e k) * W (ix2 (⟨256 + k.val, by omega⟩ : Fin 260) j) := by
  rw [sum_joined]
  refine congrArg₂ (· + ·) (congrArg₂ (· + ·) ?_ ?_) ?_
  · exact Finset.sum_congr rfl fun k _ => congrArg (· * _) (concat3_cols_fst R C D concatenates_S640000x128_S640000x128_S640000x4_S640000x260_d1 e _ k rfl)
  · exact Finset.sum_congr rfl fun k _ => congrArg (· * _) (concat3_cols_snd R C D concatenates_S640000x128_S640000x128_S640000x4_S640000x260_d1 e _ k rfl)
  · exact Finset.sum_congr rfl fun k _ => congrArg (· * _) (concat3_cols_thd R C D concatenates_S640000x128_S640000x128_S640000x4_S640000x260_d1 e _ k rfl)

/-- The reference's clamped hidden layer at (e, j). -/
theorem hidden_at (x0 : (⟨S10000x128, .f32⟩ : BufTy).Contents (Elt Ideal)) (x1 : (⟨S640000x2, .i32⟩ : BufTy).Contents (Elt Ideal)) (x2 : (⟨S640000x4, .f32⟩ : BufTy).Contents (Elt Ideal)) (x3 : (⟨S260x256, .f32⟩ : BufTy).Contents (Elt Ideal)) (x4 : (⟨S256, .f32⟩ : BufTy).Contents (Elt Ideal)) (e : Fin 640000) (j : Fin 256) :
    val_main_v23 (F := Ideal) x0 x1 x2 x3 x4 (ix2 e j)
      = max (((((∑ k : Fin 128, val_main_v10 (F := Ideal) x0 x1 (ix2 e k) * x3 (ix2 (⟨k.val, by omega⟩ : Fin 260) j))
            + ∑ k : Fin 128, val_main_v17 (F := Ideal) x0 x1 (ix2 e k) * x3 (ix2 (⟨128 + k.val, by omega⟩ : Fin 260) j))
          + ∑ k : Fin 4, x2 (ix2 e k) * x3 (ix2 (⟨256 + k.val, by omega⟩ : Fin 260) j)) + x4 (ix1 j)))
          (Ideal.ofBits .f32 0x00000000#32) := by
  have el : ∀ k : Fin 260, lidx_main_v19 (ix2 e j) k = ix2 e k := fun k => funext fun a => by
    match a with
    | ⟨0, _⟩ => rfl
    | ⟨1, _⟩ => rfl
  have er : ∀ k : Fin 260, ridx_main_v19 (ix2 e j) k = ix2 k j := fun k => funext fun a => by
    match a with
    | ⟨0, _⟩ => rfl
    | ⟨1, _⟩ => rfl
  have eb : idx_main_v20 (idx_main_v21 (ix2 e j)) = ix1 j := funext fun a => by
    match a with
    | ⟨0, _⟩ => rfl
  rw [val_main_v23_apply, val_main_call0_v0_apply, val_main_call0_cst_apply, val_main_v22_apply, val_main_v21_apply,
    val_main_v20_apply, val_main_v19_apply, eb]
  simp only [el, er]
  refine congrArg (max · _) (congrArg (· + x4 (ix1 j)) ?_)
  unfold val_main_v18
  exact joined_product _ _ x2 x3 e j

/-- THE REFERENCE'S RESULT is `mlp` of its two gathered tables, the distance table, the weights and the biases. -/
theorem result_eq (x0 : (⟨S10000x128, .f32⟩ : BufTy).Contents (Elt Ideal)) (x1 : (⟨S640000x2, .i32⟩ : BufTy).Contents (Elt Ideal)) (x2 : (⟨S640000x4, .f32⟩ : BufTy).Contents (Elt Ideal)) (x3 : (⟨S260x256, .f32⟩ : BufTy).Contents (Elt Ideal)) (x4 : (⟨S256, .f32⟩ : BufTy).Contents (Elt Ideal)) (x5 : (⟨S256x1, .f32⟩ : BufTy).Contents (Elt Ideal)) (x6 : (⟨S1, .f32⟩ : BufTy).Contents (Elt Ideal)) :
    val_main_v33 (F := Ideal) x0 x1 x2 x3 x4 x5 x6
      = mlp (val_main_v10 (F := Ideal) x0 x1) (val_main_v17 (F := Ideal) x0 x1) x2 x3 x4 x5 x6 := by
  funext i
  obtain ⟨e, u, rfl⟩ : ∃ (e : Fin 640000) (u : Fin 1), i = ix2 e u := ⟨i 0, i 1, eq_ix2 i⟩
  obtain rfl : u = 0 := Subsingleton.elim _ _
  have el : ∀ k : Fin 256, lidx_main_v24 (ix2 e (0 : Fin 1)) k = ix2 e k := fun k => funext fun a => by
    match a with
    | ⟨0, _⟩ => rfl
    | ⟨1, _⟩ => rfl
  have er : ∀ k : Fin 256, ridx_main_v24 (ix2 e (0 : Fin 1)) k = ix2 k (0 : Fin 1) := fun k => funext fun a => by
    match a with
    | ⟨0, _⟩ => rfl
    | ⟨1, _⟩ => rfl
  have eb : idx_main_v25 (idx_main_v26 (ix2 e (0 : Fin 1))) = ix1 (0 : Fin 1) := funext fun a => by
    match a with
    | ⟨0, _⟩ => rfl
  rw [val_main_v33_apply, val_main_v32_apply, val_main_cst_3_apply, val_main_v31_apply, val_main_v30_apply,
    val_main_cst_apply, val_main_v29_apply, val_main_v28_apply, val_main_v27_apply, val_main_v24_apply,
    val_main_v26_apply, val_main_v25_apply, eb]
  simp only [el, er, hidden_at]
  show Ideal.div (Ideal.ofBits .f32 0x3F800000#32) (Ideal.ofBits .f32 0x3F800000#32 + Ideal.exp (-(_ + x6 (ix1 (0 : Fin 1))))) = _
  rw [one_word]
  rfl

end Cert.ReferenceIdeal.RefCell

end
-- ==== Proof.Tables.lean ====
/-
  The two gathered tables are the same arrays in both programs.

  Each program takes column 0 (column 1) of the edge list, adds 10000 to the entries below zero, and gathers the rows of the
  node table at the resulting positions. The kernel's program first changes the node table's float format, which is the
  identity on the extended reals; everything else is the same chain of integer operations on the same argument. So
  the array the kernel's first (second) window stands on is the reference's first (second) gathered table. Neither table
  is ever opened: the two are one term.
-/
import proofs.«126675_j50568944943204_2_alg».proof.Proof.Gen.KernelIdeal.Frame
import proofs.«126675_j50568944943204_2_alg».proof.Proof.Gen.ReferenceIdeal.Read
import Idealize.ShloMosaic.Lib.StableHlo.Run

noncomputable section

namespace Cert.Proof.Tables

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The array under the kernel's first window is the reference's table of first endpoints. -/
theorem row_table (c : Dev nD) : (V m c main_v11 : S640000x128.Idx → EReal)
    = Cert.ReferenceIdeal.Read.val_main_v10 (F := Ideal) (m ((c : Thread nD τ).loc main_arg0)) (m ((c : Thread nD τ).loc main_arg1)) := by
  dsimp only [Gen.V, Gen.hostOps0]; after_results_simp <;> rfl

/-- The array under the kernel's second window is the reference's table of second endpoints. -/
theorem col_table (c : Dev nD) : (V m c main_v18 : S640000x128.Idx → EReal)
    = Cert.ReferenceIdeal.Read.val_main_v17 (F := Ideal) (m ((c : Thread nD τ).loc main_arg0)) (m ((c : Thread nD τ).loc main_arg1)) := by
  dsimp only [Gen.V, Gen.hostOps0]; after_results_simp <;> rfl

end Cert.Proof.Tables

end
-- ==== Proof.lean ====
/-
  Two programs score the 640000 edges of a graph: each edge's two endpoint rows of the node table and its 4 distances go
  through a layer of 256 hidden units clamped below at zero, then through one output unit and the logistic function.

  The kernel keeps the three inputs apart and multiplies each into its own stretch of rows of the first weight matrix,
  100 blocks of 6400 edges at a time; the reference joins the three into one row of 260 and multiplies once. On the
  extended reals the only difference is how a sum of 260 products is grouped — 128 + 128 + 4 — and a regrouped finite
  sum is the same sum, with no appeal to finiteness: the precondition is never opened. The logistic function on the
  kernel's side is, by definition, the reference's 1 / (1 + exp (−x)). The gathers of the node table are the same
  operation on the same indices in both programs and are carried as whole arrays.

  `EdgeMlp` states the common function; `BodyCell` reads the kernel body's stored value at a row; `Blocks` carries that
  from the blocks to the whole result array; `RefCell` shows the reference computes the function; `Tables` identifies the
  gathered tables of the two programs.
-/
import proofs.«126675_j50568944943204_2_alg».proof.Defs
import proofs.«126675_j50568944943204_2_alg».proof.Proof.Gen.Kernel
import proofs.«126675_j50568944943204_2_alg».proof.Proof.Gen.Kernel.Frame
import proofs.«126675_j50568944943204_2_alg».proof.Proof.Gen.KernelIdeal
import proofs.«126675_j50568944943204_2_alg».proof.Proof.Gen.KernelIdeal.Frame
import proofs.«126675_j50568944943204_2_alg».proof.Proof.Gen.KernelIdeal.Value
import proofs.«126675_j50568944943204_2_alg».proof.Proof.Gen.ReferenceIdeal
import proofs.«126675_j50568944943204_2_alg».proof.Proof.Gen.ReferenceIdeal.Run
import proofs.«126675_j50568944943204_2_alg».proof.Proof.Gen.ReferenceIdeal.Read
import proofs.«126675_j50568944943204_2_alg».proof.Proof.Gen.Pre_finite_inputs
import proofs.«126675_j50568944943204_2_alg».proof.Proof.Blocks
import proofs.«126675_j50568944943204_2_alg».proof.Proof.RefCell
import proofs.«126675_j50568944943204_2_alg».proof.Proof.Tables
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: it runs, and its arguments are among what its run keeps. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel's text was rewritten to read it on the extended reals. -/
theorem preserves : Cert.preserves_Kernel_KernelIdeal := trivial

/-- The kernel's result array, with its two gathered tables written as the reference writes them. -/
theorem result_as_reference (m : (ℓ : Loc Cert.KernelIdeal.nD Cert.KernelIdeal.τ Cert.KernelIdeal.sig) → Buf (Elt Ideal) ℓ)
    (c : Dev Cert.KernelIdeal.nD) :
    Cert.KernelIdeal.Blocks.result m c
      = Cert.EdgeMlp.mlp
          (Cert.ReferenceIdeal.Read.val_main_v10 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)))
          (Cert.ReferenceIdeal.Read.val_main_v17 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)))
          (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) := by
  unfold Cert.KernelIdeal.Blocks.result
  rw [Tables.row_table m c, Tables.col_table m c]

/-- From memories that agree on the arguments both programs end with the same array: the kernel's blocks assemble
    `mlp` of the gathered tables, the reference computes `mlp` of the same tables. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v33_eq, Cert.ReferenceIdeal.RefCell.result_eq, a0, a1, a2, a3, a4, a5, a6]
  exact (result_as_reference m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
